-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : FVec F S100000x128 .f32) (main_arg1 : FVec F S50000x128 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  main_v8
-- ==== Kernel.lean ====
abbrev S100000x128 : Shape := ⟨2, ![100000, 128]⟩
abbrev S50000x128 : Shape := ⟨2, ![50000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S6400x128 : Shape := ⟨2, ![6400, 128]⟩
abbrev S6400x1 : Shape := ⟨2, ![6400, 1]⟩
abbrev S6400 : Shape := ⟨1, ![6400]⟩

abbrev nBuf : Space → Nat
  | .hbm => 23
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x1, .f32⟩
  | .local _ .vmem, ⟨5, _⟩ => ⟨S6400x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  reduces_S6400x128_S6400 : S6400x128.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  gather_S100000x128_S1600000x1_S1600000x128_1_0_n_n_0_1_1128_wf : GatherDims.WF S100000x128 S1600000x1 S1600000x128 [1] [0] [] [0] [] 1 ![1, 128]
  gather_S50000x128_S1600000x1_S1600000x128_1_0_n_n_0_1_1128_wf : GatherDims.WF S50000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .f32 = 32 ∨ (Rect.block (s := S1600000x1) S6400x1.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf

abbrev win0_0 : Pipeline.Window sig grid0 :=
  Pipeline.Window.ofSpec (Memref.whole main_v6) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S6400x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000, .f32⟩
  | .hbm, ⟨25, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  gather_S100000x128_S1600000x1_S1600000x128_1_0_n_n_0_1_1128_wf : GatherDims.WF S100000x128 S1600000x1 S1600000x128 [1] [0] [] [0] [] 1 ![1, 128]
  gather_S50000x128_S1600000x1_S1600000x128_1_0_n_n_0_1_1128_wf : GatherDims.WF S50000x128 S1600000x1 S1600000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf

class Facts : Prop extends Facts₀ where

variable [Facts]
-- ==== Proof.EdgeDot.lean ====
/-
  The score of every edge as ONE function of the two arrays of gathered rows.

  For two arrays `u`, `v` of 1,600,000 rows of 128 extended reals, `edgeDot u v` is the one-column array whose entry in
  row `e` is the dot product of row `e` of `u` with row `e` of `v`:  ∑ k < 128, u[e,k] · v[e,k].
  Both programs compute exactly this sum of 128 products per row (one of them starting from a zero initial value), so
  no law of the extended reals beyond `0 + s = s` is needed, and finiteness of the inputs is never used.
-/
import Idealize.ShloMosaic.PureOps.Ideal
import Idealize.ShloMosaic.Lib.ValueIdx

noncomputable section

open scoped BigOperators

namespace Cert.EdgeDot

open Idealize.ShloMosaic Idealize.ShloMosaic.ValueIdx

/-- Entry `(e, k)` of an array of 1,600,000 rows of 128. -/
abbrev cell (e : Fin 1600000) (k : Fin 128) : (⟨2, ![1600000, 128]⟩ : Shape).Idx := ix2 e k

/-- The row that an index of the one-column result names. -/
abbrev rowOf (i : (⟨2, ![1600000, 1]⟩ : Shape).Idx) : Fin 1600000 := ⟨(i 0).val, (i 0).isLt⟩

/-- Row by row, the dot product of the two arrays' rows. -/
def edgeDot (u v : FVec Ideal ⟨2, ![1600000, 128]⟩ .f32) : FVec Ideal ⟨2, ![1600000, 1]⟩ .f32 :=
  fun i => ∑ k : Fin 128, u (cell (rowOf i) k) * v (cell (rowOf i) k)

/-- `edgeDot` at an index, unfolded. -/
theorem edgeDot_apply (u v : FVec Ideal ⟨2, ![1600000, 128]⟩ .f32) (i : (⟨2, ![1600000, 1]⟩ : Shape).Idx) :
    edgeDot u v i = ∑ k : Fin 128, u (cell (rowOf i) k) * v (cell (rowOf i) k) := rfl

end Cert.EdgeDot

end
-- ==== Proof.RefRows.lean ====
/-
  The reference's result is `edgeDot` of its two gathered arrays.

  The reference multiplies the two gathered arrays entry by entry, adds each row's 128 products onto the initial value
  zero, and recasts the list of 1,600,000 sums as a column.  Read at the entry of row `e`: the column's entry is the list's
  entry `e`, that is `0 + ∑ k, u[e,k] · v[e,k]`, and the zero word is the real number zero.
-/
import proofs.«106276_j12893491822699_2_alg».proof.Proof.Gen.ReferenceIdeal.Read
import proofs.«106276_j12893491822699_2_alg».proof.Proof.EdgeDot
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Cert.EdgeDot

/-- The reference's last stage, as a function of the four arguments, is the row-by-row dot product of its two gather
    stages (the gathers themselves stay unopened: the kernel's program applies the very same two). -/
theorem result_rows (x0 : (⟨S100000x128, .f32⟩ : BufTy).Contents (Elt Ideal)) (x1 : (⟨S50000x128, .f32⟩ : BufTy).Contents (Elt Ideal))
    (x2 x3 : (⟨S1600000, .i32⟩ : BufTy).Contents (Elt Ideal)) :
    val_main_v16 (F := Ideal) x0 x1 x2 x3 = edgeDot (val_main_v6 (F := Ideal) x0 x2) (val_main_v13 (F := Ideal) x1 x3) := by
  funext i
  rw [val_main_v16_apply, val_main_v15_apply, edgeDot_apply]
  -- the initial value is the zero word, the real number zero
  have h0 : (val_main_cst (F := Ideal)) (Shape.Idx.first h_S_) = 0 := by
    rw [val_main_cst_apply]; exact Ideal.ofBits_zero_f32
  rw [h0, zero_add]
  refine Finset.sum_congr rfl fun k _ => ?_
  -- entry (e, k) of the product array, with e the row the column index names
  have hidx : idx_main_v15 (idx_main_v16 i) k = cell (rowOf i) k :=
    funext fun a => Fin.ext (by match a with | ⟨0, _⟩ => rfl | ⟨1, _⟩ => rfl)
  rw [val_main_v14_apply, hidx]
  rfl

end Cert.ReferenceIdeal.Rows

end
-- ==== Proof.BlockRows.lean ====
/-
  One block of the kernel: what the body leaves in the output block, row by row.

  The body multiplies its two 6400 × 128 input blocks entry by entry, adds each row's 128 products (a lane sum with the
  neutral accumulator), and recasts the 6400 sums as a 6400 × 1 column, which it stores whole.  So the entry of row `r` of
  the output block is  ∑ k < 128, x0[r,k] · x1[r,k].
-/
import proofs.«106276_j12893491822699_2_alg».proof.Proof.Gen.KernelIdeal.Value
import Idealize.ShloMosaic.PureOps.Ideal.Laws
import Idealize.ShloMosaic.Lib.ValueIdx
import Idealize.ShloMosaic.Lib.Pipeline.Value

noncomputable section

open scoped BigOperators

namespace Cert.KernelIdeal.Rows

open Cert.KernelIdeal Cert.KernelIdeal.Gen Idealize.ShloMosaic Idealize.ShloMosaic.ValueIdx

theorem hz : (![0, 0] : Fin 2 → Nat) = fun _ => 0 := funext fun a => by fin_cases a <;> rfl

/-- The block function of the body's loads, at row `r`: the lane sum of the entrywise product there. -/
theorem block_rows (P0 P1 : Vec Ideal S6400x128 .f32) (r : Fin 6400) :
    Value.E2 (F := Ideal) P0 P1 (ix2 r (0 : Fin 1)) = ∑ k : Fin 128, P0 (ix2 r k) * P1 (ix2 r k) := by
  show multiReduction (F := Ideal) .add [1] S6400 (mulf (shapeCast S6400x128 P0 shapeCasts_S6400x128_S6400x128) (shapeCast S6400x128 P1 shapeCasts_S6400x128_S6400x128)) 0x00000000#32 reduces_S6400x128_S6400 (.inl rfl) rfl (Value.ix2_0 (ix2 r (0 : Fin 1))) = _
  refine (Ideal.multiReduction_add_single _ 0x00000000#32 reduces_S6400x128_S6400 (.inl rfl) rfl _).trans ?_
  refine Finset.sum_congr rfl fun (k : Fin 128) _ => ?_
  have e : reduces_S6400x128_S6400.lift (Value.ix2_0 (ix2 r (0 : Fin 1))) k = ix2 r k :=
    funext fun a => Fin.ext (by match a with | ⟨0, _⟩ => rfl | ⟨1, _⟩ => rfl)
  rw [e, mulf_apply, shapeCast_self, shapeCast_self]

/-- What the body leaves in the output block, from its two input blocks, at row `r`. -/
theorem out_rows (x0 x1 : Vec Ideal S6400x128 .f32) (r : Fin 6400) :
    out0_2 (F := Ideal) x0 x1 (ix2 r (0 : Fin 1)) = ∑ k : Fin 128, x0 (ix2 r k) * x1 (ix2 r k) := by
  unfold out0_2
  rw [Value.canon2_eq]
  simp only [View.ld_unit_zero (S := S6400x128) hz]
  exact block_rows x0 x1 r

end Cert.KernelIdeal.Rows

end
-- ==== Proof.Blocks.lean ====
/-
  From blocks to the whole array.

  The grid has 250 points; point `t` fetches rows `6400·t … 6400·t + 6399` of each of the two gathered arrays (all 128
  columns) and writes back rows `6400·t … 6400·t + 6399` of the one-column result.  So what point `t` writes back is block
  `t` of `edgeDot` of the two arrays as the region finds them: row `r` of the block is row `6400·t + r` of the arrays.  The
  250 blocks tile the 1,600,000 rows (row `e` lies in block `e / 6400`), hence after the run the result array IS
  `edgeDot` of the two gathered arrays.
-/
import proofs.«106276_j12893491822699_2_alg».proof.Proof.BlockRows
import proofs.«106276_j12893491822699_2_alg».proof.Proof.EdgeDot

noncomputable section

open scoped BigOperators

namespace Cert.KernelIdeal.Rows

open Cert.KernelIdeal Cert.KernelIdeal.Gen Cert.KernelIdeal.Value Idealize.ShloMosaic Idealize.ShloMosaic.TcCoe Idealize.SL.Sem
open Idealize.ShloMosaic.ValueIdx Cert.EdgeDot
open Idealize.ShloMosaic.Pipeline (Dat)

variable (m : (ℓ : Loc nD τ sig) → Buf (Elt Ideal) ℓ) (ρ : Dev nD → PrngReg)

/-- The printed index maps, decided over the 250 grid points: every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Entry `(r, k)` of the first input block at point `t` is entry `(6400·t + r, k)` of the first gathered array. -/
theorem read_blk0 (A : S1600000x128.Idx → Elt Ideal .f32) (t : Fin cfg0.N) (r : Fin 6400) (k : Fin 128) (e : Fin 1600000)
    (he : e.val = t.val * 6400 + r.val) :
    ((cfg0.win 0).blk t).view.read (Elt Ideal) A (ix2 r k) = A (cell e k) := by
  obtain ⟨h00, h01, -⟩ := idx_facts t
  show A (((cfg0.win 0).blk t).view.emb (ix2 r k)) = A (cell e k)
  refine congrArg A (funext fun a => Fin.ext ?_)
  match a with
  | ⟨0, _⟩ => show win0_0.index t (0 : Fin 2) * 6400 + 1 * r.val = e.val; omega
  | ⟨1, _⟩ => show win0_0.index t (1 : Fin 2) * 128 + 1 * k.val = k.val; omega

/-- Entry `(r, k)` of the second input block at point `t` is entry `(6400·t + r, k)` of the second gathered array. -/
theorem read_blk1 (A : S1600000x128.Idx → Elt Ideal .f32) (t : Fin cfg0.N) (r : Fin 6400) (k : Fin 128) (e : Fin 1600000)
    (he : e.val = t.val * 6400 + r.val) :
    ((cfg0.win 1).blk t).view.read (Elt Ideal) A (ix2 r k) = A (cell e k) := by
  obtain ⟨-, -, h10, h11, -⟩ := idx_facts t
  show A (((cfg0.win 1).blk t).view.emb (ix2 r k)) = A (cell e k)
  refine congrArg A (funext fun a => Fin.ext ?_)
  match a with
  | ⟨0, _⟩ => show win0_1.index t (0 : Fin 2) * 6400 + 1 * r.val = e.val; omega
  | ⟨1, _⟩ => show win0_1.index t (1 : Fin 2) * 128 + 1 * k.val = k.val; omega

/-- Row `r` of the output block at point `t` is row `6400·t + r` of the result array. -/
theorem row_blk2 (t : Fin cfg0.N) (r : Fin 6400) :
    (rowOf (((cfg0.win 2).blk t).view.emb (ix2 r (0 : Fin 1)))).val = t.val * 6400 + r.val := by
  obtain ⟨-, -, -, -, h20, -⟩ := idx_facts t
  show win0_2.index t (0 : Fin 2) * 6400 + 1 * r.val = _
  omega

/-- WHAT POINT `t` WRITES BACK is block `t` of `edgeDot` of the two gathered arrays as the region finds them. -/
theorem flushed_rows (c : Dev nD) (t : Fin cfg0.N) :
    (dats m 0 c).flushed 2 t = ((cfg0.win 2).blk t).view.read (Elt Ideal) (edgeDot (V m c main_v6) (V m c main_v13)) := by
  show (cfg0.win 2).cut (grid0.coords t) ((dats m 0 c).after 2 t) = _
  rw [after0_2]
  show (cfg0.win 2).cut (grid0.coords t) (out0_2 (((cfg0.win 0).blk t).view.read (Elt Ideal) (V m c main_v6)) (((cfg0.win 1).blk t).view.read (Elt Ideal) (V m c main_v13))) = _
  generalize V m c main_v6 = U
  generalize V m c main_v13 = W
  funext j
  obtain ⟨r, rfl⟩ : ∃ r : Fin 6400, j = ix2 r (0 : Fin 1) :=
    ⟨⟨(j 0).val, (j 0).isLt⟩, funext fun a => Fin.ext (by
      match a with
      | ⟨0, _⟩ => rfl
      | ⟨1, _⟩ => have h1 : (j 1).val < 1 := (j 1).isLt; show (j 1).val = 0; omega)⟩
  show out0_2 (((cfg0.win 0).blk t).view.read (Elt Ideal) U) (((cfg0.win 1).blk t).view.read (Elt Ideal) W) (ix2 r (0 : Fin 1))
    = edgeDot U W (((cfg0.win 2).blk t).view.emb (ix2 r (0 : Fin 1)))
  refine (out_rows _ _ r).trans ?_
  rw [edgeDot_apply]
  refine Finset.sum_congr rfl fun k _ => ?_
  rw [read_blk0 U t r k _ (row_blk2 t r), read_blk1 W t r k _ (row_blk2 t r)]

/-- An index of the result array is in point `t`'s block iff each coordinate is in the block's range on its axis. -/
theorem mem_blk (t : Fin cfg0.N) (i : S1600000x1.Idx) :
    i ∈ ((cfg0.win 2).blk t).view.set ↔ ∀ a : Fin 2, win0_2.index t a * S6400x1.size a ≤ (i a).val ∧ (i a).val < win0_2.index t a * S6400x1.size a + S6400x1.size a := by
  show i ∈ ((View.whole main_v14).slice (win0_2.rect t)).set ↔ _
  rw [View.set_slice_whole, Rect.mem_set_unit]
  exact Iff.rfl

/-- The 250 blocks of 6400 rows tile the 1,600,000 rows: row `e` lies in the block of point `e / 6400`. -/
theorem cover (i : S1600000x1.Idx) :
    ∃ t : Fin cfg0.N, (cfg0.win 2).flush t = true ∧ i ∈ ((cfg0.win 2).blk t).view.set := by
  have hi0 : (i 0).val < 1600000 := (i 0).isLt
  have hi1 : (i 1).val < 1 := (i 1).isLt
  have hN : cfg0.N = 250 := N_0
  have ht : (i 0).val / 6400 < cfg0.N := by rw [hN]; omega
  obtain ⟨-, -, -, -, h20, h21⟩ := idx_facts ⟨(i 0).val / 6400, ht⟩
  refine ⟨⟨(i 0).val / 6400, ht⟩, flush0_2 _, ?_⟩
  rw [mem_blk]
  intro a
  match a with
  | ⟨0, _⟩ =>
    show win0_2.index ⟨(i 0).val / 6400, ht⟩ (0 : Fin 2) * 6400 ≤ (i 0).val ∧ (i 0).val < win0_2.index ⟨(i 0).val / 6400, ht⟩ (0 : Fin 2) * 6400 + 6400
    rw [h20]; show (i 0).val / 6400 * 6400 ≤ (i 0).val ∧ (i 0).val < (i 0).val / 6400 * 6400 + 6400; omega
  | ⟨1, _⟩ =>
    show win0_2.index ⟨(i 0).val / 6400, ht⟩ (1 : Fin 2) * 1 ≤ (i 1).val ∧ (i 1).val < win0_2.index ⟨(i 0).val / 6400, ht⟩ (1 : Fin 2) * 1 + 1
    rw [h21]; omega

/-- THE RESULT ARRAY after the run: `edgeDot` of the two gathered arrays as the region finds them. -/
theorem final_rows (c : Dev nD) : (dats m 0 c).arrAt 2 cfg0.N = edgeDot (V m c main_v6) (V m c main_v13) :=
  (dats m 0 c).arrAt_eq_of_cover 2 (edgeDot (V m c main_v6) (V m c main_v13)) (fun t _ => flushed_rows m c t) cover

/-- The kernel's run, read: the result array at `edgeDot` of the gathered arrays, the four arguments unchanged. -/
theorem run_rows : θ_run defs (onTc (τ := τ) (main (F := Ideal))) ⟨m, fun _ => 0, ρ⟩ fun r => ∀ c : Dev nD,
      r.2.mem ((c : Thread nD τ).loc main_v14) = edgeDot (V m c main_v6) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_rows m c), (h c).2⟩) (Value.run_blocks m ρ)

end Cert.KernelIdeal.Rows

end
-- ==== Proof.HostRows.lean ====
/-
  The two gathered arrays, as the region finds them, are the reference's two gather stages of the same arguments.

  Before the region the kernel's program runs the same eighteen host operations as the reference's first eighteen: each
  index list is normalised (a negative index counts from the end) and recast as a column, and the rows it names are
  gathered from the table.  The chain is carried whole, as one function of the arguments: nothing in it is opened.
-/
import proofs.«106276_j12893491822699_2_alg».proof.Proof.Gen.KernelIdeal.Frame
import proofs.«106276_j12893491822699_2_alg».proof.Proof.Gen.ReferenceIdeal.Read
import Idealize.ShloMosaic.Lib.StableHlo.Run

noncomputable section

namespace Cert.KernelIdeal.Rows

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The rows of the first table named by the first index list. -/
theorem V_users (c : Dev nD) :
    (V m c main_v6 : S1600000x128.Idx → Elt Ideal .f32)
      = Cert.ReferenceIdeal.Read.val_main_v6 (F := Ideal) (m ((c : Thread nD τ).loc main_arg0)) (m ((c : Thread nD τ).loc main_arg2)) := by
  dsimp only [Gen.V, Gen.hostOps0]
  after_results
  rfl

/-- The rows of the second table named by the second index list. -/
theorem V_games (c : Dev nD) :
    (V m c main_v13 : S1600000x128.Idx → Elt Ideal .f32)
      = Cert.ReferenceIdeal.Read.val_main_v13 (F := Ideal) (m ((c : Thread nD τ).loc main_arg1)) (m ((c : Thread nD τ).loc main_arg3)) := by
  dsimp only [Gen.V, Gen.hostOps0]
  after_results
  rfl

end Cert.KernelIdeal.Rows

end
-- ==== Proof.lean ====
/-
  Edge scores of a bipartite graph: for every edge `e` the dot product of the source row `user_h[src_idx[e]]` with the
  destination row `game_h[dst_idx[e]]`, as a column of 1,600,000 entries.

  Both programs first gather the two arrays of rows by the SAME host operations (the index lists normalised and recast
  as columns, then the rows gathered), so those two arrays are one function of the arguments on both sides and are never
  opened.  The reference then multiplies them entry by entry, adds each row's 128 products onto zero and recasts the sums
  as a column; the kernel streams the two arrays in 250 blocks of 6400 rows, and in each block multiplies entry by
  entry, adds each row's 128 products and stores the 6400 sums as a column block.  On the extended reals both results are
  `edgeDot` of the two gathered arrays:  entry `e` is  ∑ k < 128, u[e,k] · v[e,k]  (the reference's `0 + ·` dropped).
  Finiteness of the inputs is not used.  The idealization rewrote nothing, so `preserves` is trivial.
-/
import proofs.«106276_j12893491822699_2_alg».proof.Defs
import proofs.«106276_j12893491822699_2_alg».proof.Proof.Gen.Kernel
import proofs.«106276_j12893491822699_2_alg».proof.Proof.Gen.Kernel.Skeleton
import proofs.«106276_j12893491822699_2_alg».proof.Proof.Gen.Kernel.Launch
import proofs.«106276_j12893491822699_2_alg».proof.Proof.Gen.Kernel.Points
import proofs.«106276_j12893491822699_2_alg».proof.Proof.Gen.Kernel.Frame
import proofs.«106276_j12893491822699_2_alg».proof.Proof.Gen.KernelIdeal
import proofs.«106276_j12893491822699_2_alg».proof.Proof.Gen.KernelIdeal.Skeleton
import proofs.«106276_j12893491822699_2_alg».proof.Proof.Gen.KernelIdeal.Launch
import proofs.«106276_j12893491822699_2_alg».proof.Proof.Gen.KernelIdeal.Points
import proofs.«106276_j12893491822699_2_alg».proof.Proof.Gen.KernelIdeal.Frame
import proofs.«106276_j12893491822699_2_alg».proof.Proof.Gen.ReferenceIdeal
import proofs.«106276_j12893491822699_2_alg».proof.Proof.Gen.Pre_finite_inputs
import proofs.«106276_j12893491822699_2_alg».proof.Proof.Gen.KernelIdeal.Value
import proofs.«106276_j12893491822699_2_alg».proof.Proof.Gen.ReferenceIdeal.Run
import proofs.«106276_j12893491822699_2_alg».proof.Proof.Gen.ReferenceIdeal.Read
import proofs.«106276_j12893491822699_2_alg».proof.Proof.EdgeDot
import proofs.«106276_j12893491822699_2_alg».proof.Proof.RefRows
import proofs.«106276_j12893491822699_2_alg».proof.Proof.Blocks
import proofs.«106276_j12893491822699_2_alg».proof.Proof.HostRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both results are `edgeDot` of the two gathered arrays: the kernel's array block by block (`run_rows`), the
    reference's by reading its last three operations at an index (`result_rows`); the gathered arrays are the same
    function of arguments that agree (`V_users`, `V_games`). -/
theorem algebraic : Cert.algebraic_KernelIdeal_ReferenceIdeal := by
  intro m ρ m' ρ' _ hagree
  refine ⟨fun c => Cert.EdgeDot.edgeDot (Cert.KernelIdeal.Gen.V m c Cert.KernelIdeal.main_v6) (Cert.KernelIdeal.Gen.V m c Cert.KernelIdeal.main_v13),
    Cert.KernelIdeal.Rows.run_rows m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _).trans ?_
  show _ = Cert.EdgeDot.edgeDot (Cert.KernelIdeal.Gen.V m c Cert.KernelIdeal.main_v6) (Cert.KernelIdeal.Gen.V m c Cert.KernelIdeal.main_v13)
  rw [Cert.ReferenceIdeal.Rows.result_rows, (hagree c).1, (hagree c).2.1, (hagree c).2.2.1, (hagree c).2.2.2,
    Cert.KernelIdeal.Rows.V_users m c, Cert.KernelIdeal.Rows.V_games m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
